-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) (main_arg2 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  main_v13
-- ==== Kernel.lean ====
abbrev S32x1x512x512 : Shape := ⟨4, ![32, 1, 512, 512]⟩
abbrev S2x1x1 : Shape := ⟨3, ![2, 1, 1]⟩
abbrev S2x1x512x512 : Shape := ⟨4, ![2, 1, 512, 512]⟩
abbrev S1x1x1 : Shape := ⟨3, ![1, 1, 1]⟩
abbrev S2x512x512 : Shape := ⟨3, ![2, 512, 512]⟩
abbrev S2x512 : Shape := ⟨2, ![2, 512]⟩
abbrev S2x512x1 : Shape := ⟨3, ![2, 512, 1]⟩
abbrev S2x1 : Shape := ⟨2, ![2, 1]⟩
abbrev S1x1 : Shape := ⟨2, ![1, 1]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S2x1x512x512, .f32⟩
  | .local _ .vmem, ⟨1, _⟩ => ⟨S2x1x512x512, .f32⟩
  | .local _ .vmem, ⟨2, _⟩ => ⟨S2x1x512x512, .f32⟩
  | .local _ .vmem, ⟨3, _⟩ => ⟨S2x1x512x512, .f32⟩
  | .local _ .vmem, ⟨4, _⟩ => ⟨S2x1x512x512, .f32⟩
  | .local _ .vmem, ⟨5, _⟩ => ⟨S2x1x512x512, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v63 : BitVec 1 := Scalar.cmpi .eq arg1 c7_i32
  let v64 : BitVec 32 := Scalar.extui v63
  let c0_i32_33 : BitVec 32 := 0#32
  let v65 : BitVec 1 := Scalar.cmpi .ne v64 c0_i32_33
  v65

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S2x1x512x512_S2x1x512x512_0_0_0_0 : ∀ a, (![0, 0, 0, 0] : Fin 4 → Nat) a + S2x1x512x512.size a ≤ S2x1x512x512.size a
  h_S2x1x512x512 : 0 < S2x1x512x512.numel
  shapeCasts_S2x1x512x512_S2x512x512 : S2x1x512x512.ShapeCasts S2x512x512
  reduces_S2x512x512_S2x512 : S2x512x512.Reduces [2] S2x512
  shapeCasts_S2x512_S2x512x1 : S2x512.ShapeCasts S2x512x1
  reduces_S2x512x1_S2x1 : S2x512x1.Reduces [1] S2x1
  shapeCasts_S2x1_S2x1x1 : S2x1.ShapeCasts S2x1x1
  broadcasts_S2x1x1_S2x512x512 : S2x1x1.Broadcasts S2x512x512
  reduces_S2x1x1_S1x1 : S2x1x1.Reduces [0] S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x512.size a ≤ S32x1x512x512.size a
  hwx0_0 : ∀ i : grid0.Coords, EltTy.bits .f32 = 32 ∨ (Rect.block (s := S32x1x512x512) S2x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x512.size a ≤ S32x1x512x512.size a
  hwx0_1 : ∀ i : grid0.Coords, EltTy.bits .f32 = 32 ∨ (Rect.block (s := S32x1x512x512) S2x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x512x512.size a ≤ S32x1x512x512.size a
  hwx0_2 : ∀ i : grid0.Coords, EltTy.bits .f32 = 32 ∨ (Rect.block (s := S32x1x512x512) S2x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S2x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S_ : Shape := ⟨0, ![]⟩
abbrev S32 : Shape := ⟨1, ![32]⟩
abbrev S32x1x1x1 : Shape := ⟨4, ![32, 1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S32x1x512x512, .f32⟩
  | .hbm, ⟨4, _⟩ => ⟨S32x1x512x512, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x1x1x1, .f32⟩
  | .hbm, ⟨12, _⟩ => ⟨S_, .f32⟩
  | .hbm, ⟨13, _⟩ => ⟨S32x1x512x512, .f32⟩
  | .hbm, ⟨14, _⟩ => ⟨S32x1x512x512, .f32⟩
  | .hbm, ⟨15, _⟩ => ⟨S32x1x512x512, .f32⟩
  | .hbm, ⟨16, _⟩ => ⟨S32x1x512x512, .f32⟩
  | .hbm, ⟨17, _⟩ => ⟨S32x1x512x512, .f32⟩
  | .hbm, ⟨18, _⟩ => ⟨S_, .f32⟩
  | .hbm, ⟨19, _⟩ => ⟨S32x1x512x512, .f32⟩
  | .hbm, ⟨20, _⟩ => ⟨S32x1x512x512, .f32⟩
  | .hbm, ⟨21, _⟩ => ⟨S32x1x512x512, .f32⟩
  | .hbm, ⟨22, _⟩ => ⟨S32x1x512x512, .f32⟩
  | .hbm, ⟨23, _⟩ => ⟨S_, .f32⟩
  | .hbm, ⟨24, _⟩ => ⟨S32x1x512x512, .f32⟩
  | .hbm, ⟨25, _⟩ => ⟨S32x1x512x512, .i1⟩
  | .hbm, ⟨26, _⟩ => ⟨S_, .f32⟩
  | .hbm, ⟨27, _⟩ => ⟨S32x1x512x512, .f32⟩
  | .hbm, ⟨28, _⟩ => ⟨S32x1x512x512, .f32⟩
  | .hbm, ⟨29, _⟩ => ⟨S32x1x512x512, .f32⟩
  | .hbm, ⟨30, _⟩ => ⟨S32x1x512x512, .f32⟩
  | .hbm, ⟨31, _⟩ => ⟨S_, .f32⟩
  | .hbm, ⟨32, _⟩ => ⟨S32x1x512x512, .f32⟩
  | .hbm, ⟨33, _⟩ => ⟨S32x1x512x512, .f32⟩
  | .hbm, ⟨34, _⟩ => ⟨S32x1x512x512, .f32⟩
  | .hbm, ⟨35, _⟩ => ⟨S32x1x512x512, .f32⟩
  | .hbm, ⟨36, _⟩ => ⟨S32x1x512x512, .f32⟩
  | .hbm, ⟨37, _⟩ => ⟨S_, .f32⟩
  | .hbm, ⟨38, _⟩ => ⟨S32x1x512x512, .f32⟩
  | .hbm, ⟨39, _⟩ => ⟨S32x1x512x512, .i1⟩
  | .hbm, ⟨40, _⟩ => ⟨S32x1x512x512, .f32⟩
  | .hbm, ⟨41, _⟩ => ⟨S_, .f32⟩
  | .hbm, ⟨42, _⟩ => ⟨S32x1x512x512, .f32⟩
  | .hbm, ⟨43, _⟩ => ⟨S32x1x512x512, .f32⟩
  | .hbm, ⟨44, _⟩ => ⟨S_, .f32⟩
  | .hbm, ⟨45, _⟩ => ⟨S32x1x512x512, .f32⟩
  | .hbm, ⟨46, _⟩ => ⟨S32x1x512x512, .f32⟩
  | .hbm, ⟨47, _⟩ => ⟨S32x1x512x512, .f32⟩
  | .hbm, ⟨48, _⟩ => ⟨S32x1x512x512, .f32⟩
  | .hbm, ⟨49, _⟩ => ⟨S32x1x512x512, .f32⟩
  | .hbm, ⟨50, _⟩ => ⟨S32x1x512x512, .f32⟩
  | .hbm, ⟨51, _⟩ => ⟨S32x1x512x512, .f32⟩
  | .hbm, ⟨52, _⟩ => ⟨S32x1x512x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S32x1x512x512_S32_d1_2_3 : S32x1x512x512.ReducesTo [1, 2, 3] S32
  h_S_ : 0 < S_.numel
  bcast_S_S32 : S_.BroadcastsInDim S32 (![] : Fin 0 → Fin S32.rank)
  bcast_S32_S32x1x1x1_0 : S32.BroadcastsInDim S32x1x1x1 (![0] : Fin 1 → Fin S32x1x1x1.rank)
  bcast_S_S32x1x512x512 : S_.BroadcastsInDim S32x1x512x512 (![] : Fin 0 → Fin S32x1x512x512.rank)
  bcast_S32x1x1x1_S32x1x512x512_0_1_2_3 : S32x1x1x1.BroadcastsInDim S32x1x512x512 (![0, 1, 2, 3] : Fin 4 → Fin S32x1x512x512.rank)
  reducesTo_S32x1x512x512_S_d0_1_2_3 : S32x1x512x512.ReducesTo [0, 1, 2, 3] S_

variable [Facts₀]

class Facts : Prop extends Facts₀ where

variable [Facts]
-- ==== Proof.Pieces.lean ====
/-
  What each control case of the kernel body leaves in the accumulator and in the output block, as values (at any float
  instance): the generated run finds, per case, the list of stores into each buffer; here each list is read back as
  the one function it denotes.

  The body has three cases by the position `s` of the grid point inside its core's run of eight: at the first step
  (case A) it zeroes the accumulator, reads the zero back and stores `0-block + contribution`; at a middle step (case B)
  it stores `what the step before left + contribution`; at the last step (case C) it does the same and then copies the
  accumulator into the output block. In every case the stored value is the body's one payload `k0_pay1` of the three
  loaded blocks and of the accumulator's previous contents (`k0_pay2`, the zero block, in case A).
-/
import proofs.«115184_j72885595013509_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- CASE A (a core's first step): the accumulator ends at the payload of the loaded blocks over the zero block it has
    just stored and read back. -/
theorem sout_A (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S2x1x512x512 .f32) (harg4 : arg4.IsWhole) (arg5 : Memref sig .tc .vmem S1x1x1 .f32) (harg5 : arg5.IsWhole) (arg6 : Memref sig .tc .vmem S1x1x1 .f32) (harg6 : arg6.IsWhole) (hc0 : cond0_0 i) (hc1 : ¬cond0_1 i)
    (x0 : Vec F S2x1x512x512 .f32) (x1 : Vec F S2x1x512x512 .f32) (x2 : Vec F S2x1x512x512 .f32) :
    sout0_A_0 c i arg2 harg2 arg3 harg3 arg4 harg4 arg5 harg5 arg6 harg6 hc0 hc1 x0 x1 x2
      = k0_pay1 (k0_pay3 x0) (k0_pay5 x2) (k0_pay7 x1 x2) (k0_pay8 x0 x2) (k0_pay9 x0 x1 x2) (Scalar.ofBits .f32 0x3F800000#32) (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg6.read_unread,
    View.ld_unit_zero (S := S2x1x512x512) hz4, View.ld_unit_zero (S := S1x1x1) hz3]

/-- CASE B (a middle step): the accumulator ends at the payload over what the step before left in it. -/
theorem sout_B (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S2x1x512x512 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : ¬cond0_1 i)
    (x0 : Vec F S2x1x512x512 .f32) (x1 : Vec F S2x1x512x512 .f32) (x2 : Vec F S2x1x512x512 .f32) (xs0 : Vec F S1x1x1 .f32) :
    sout0_B_0 c i arg2 harg2 arg3 harg3 arg4 harg4 arg5 harg5 arg6 harg6 hc0 hc1 x0 x1 x2 xs0
      = k0_pay1 (k0_pay3 x0) (k0_pay5 x2) (k0_pay7 x1 x2) (k0_pay8 x0 x2) (k0_pay9 x0 x1 x2) (Scalar.ofBits .f32 0x3F800000#32) xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz3]
  simp only [View.readAt_eq_ld, harg2.read_unread, harg3.read_unread, harg4.read_unread, harg6.read_unread,
    View.ld_unit_zero (S := S2x1x512x512) hz4, View.ld_unit_zero (S := S1x1x1) hz3]

/-- CASE C (a core's last step): the accumulator likewise, -/
theorem sout_C (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S2x1x512x512 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S2x1x512x512 .f32) (x1 : Vec F S2x1x512x512 .f32) (x2 : Vec F S2x1x512x512 .f32) (xs0 : Vec F S1x1x1 .f32) :
    sout0_C_0 c i arg2 harg2 arg3 harg3 arg4 harg4 arg5 harg5 arg6 harg6 hc0 hc1 x0 x1 x2 xs0
      = k0_pay1 (k0_pay3 x0) (k0_pay5 x2) (k0_pay7 x1 x2) (k0_pay8 x0 x2) (k0_pay9 x0 x1 x2) (Scalar.ofBits .f32 0x3F800000#32) xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz3]
  simp only [View.readAt_eq_ld, harg2.read_unread, harg3.read_unread, harg4.read_unread, harg6.read_unread,
    View.ld_unit_zero (S := S2x1x512x512) hz4, View.ld_unit_zero (S := S1x1x1) hz3]

/-- and the output block ends at the same value: the accumulator read back after its store. -/
theorem out_C (c : Dev nD) (i : grid0.Coords) (arg2 : Memref sig .tc .vmem S2x1x512x512 .f32) (harg2 : arg2.IsWhole) (arg3 : Memref sig .tc .vmem S2x1x512x512 .f32) (harg3 : arg3.IsWhole) (arg4 : Memref sig .tc .vmem S2x1x512x512 .f32) (harg4 : arg4.IsWhole) (arg5 : Memref sig .tc .vmem S1x1x1 .f32) (harg5 : arg5.IsWhole) (arg6 : Memref sig .tc .vmem S1x1x1 .f32) (harg6 : arg6.IsWhole) (hc0 : ¬cond0_0 i) (hc1 : cond0_1 i)
    (x0 : Vec F S2x1x512x512 .f32) (x1 : Vec F S2x1x512x512 .f32) (x2 : Vec F S2x1x512x512 .f32) (xs0 : Vec F S1x1x1 .f32) :
    out0_C_3 c i arg2 harg2 arg3 harg3 arg4 harg4 arg5 harg5 arg6 harg6 hc0 hc1 x0 x1 x2 xs0
      = k0_pay1 (k0_pay3 x0) (k0_pay5 x2) (k0_pay7 x1 x2) (k0_pay8 x0 x2) (k0_pay9 x0 x1 x2) (Scalar.ofBits .f32 0x3F800000#32) xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1x1) _ hz3]
  simp only [View.readAt_eq_ld, harg2.read_unread, harg3.read_unread, harg4.read_unread, harg6.read_unread,
    View.ld_unit_zero (S := S2x1x512x512) hz4, View.ld_unit_zero (S := S1x1x1) hz3]

end Cert.KernelIdeal.Pieces

end
-- ==== Proof.Spec.lean ====
/-
  The counterfactual REINFORCE loss of a sampled halftone, as one function of the three argument arrays, on the
  extended reals.

  For a batch of 32 single-channel 512 × 512 planes — `p` the per-pixel Bernoulli probabilities, `c` the continuous
  target, `h` the sampled halftone — with N = 512 · 512:

    sq(c, h)      = (h - c)²                          the pixel's squared deviation
    sq'(c, h)     = ((1 - h) - c)²                    the same with the pixel flipped
    S_B           = Σ_{pixels of plane B} sq          plane B's total squared deviation
    R_B           = (0 - S_B) / N                     plane B's reward (minus the mean squared deviation)
    flip(p, h)    = p if h = 0 else 1 - p             the probability of the flipped value
    term          = (0 - log (p if h = 1 else (1 - p) + ε))
                      · (R_B - (flip · (R_B + (sq - sq') / N) + (1 - flip) · R_B))
    loss          = (Σ_B Σ_{pixels of plane B} term) / 32

  `term` is stated in the order of operations both programs share; the only differences between them are the
  spelling of a negation (`0 - x` against `-x`), on which side of a quotient by the nonzero N the negation stands, a
  logarithm taken after or before the choice of its argument, and the grouping of the sums. The laws for the first three are here
  (`zero_sub'`, `reward_eq`, `negLog_select`); every literal but the zero and N stays a pattern that is never evaluated.
-/
import Idealize.ShloMosaic.PureOps.Ideal
import Idealize.ShloMosaic.PureOps.Ideal.Laws
import Idealize.ShloMosaic.Lib.ValueIdx

noncomputable section

namespace Cert.Coma

open Idealize.ShloMosaic Idealize.ShloMosaic.ValueIdx

/-- The float patterns the programs spell: 0, 1, N = 262144 = 512 · 512, ε (the pattern nearest 1e-8), the batch size 32. -/
abbrev w0 : EReal := Ideal.ofBits .f32 0x00000000#32
abbrev w1 : EReal := Ideal.ofBits .f32 0x3F800000#32
abbrev wN : EReal := Ideal.ofBits .f32 0x48800000#32
abbrev wE : EReal := Ideal.ofBits .f32 0x322BCC77#32
abbrev wB : EReal := Ideal.ofBits .f32 0x42000000#32

/-- The zero pattern denotes 0. -/
theorem w0_eq : w0 = 0 := Ideal.ofBits_zero_f32

/-- N's pattern denotes the real 262144. -/
theorem wN_eq : wN = ((262144 : ℝ) : EReal) := by
  simp [Ideal.ofBits, Ideal.ieee, -EReal.coe_mul]; norm_num

/-- A pixel's squared deviation from the target, and the same with the pixel flipped. -/
def sqDev (c h : EReal) : EReal := (h - c) * (h - c)
def sqFlip (c h : EReal) : EReal := ((w1 - h) - c) * ((w1 - h) - c)

/-- A plane's reward from its total squared deviation `S`: `(0 - S) / N`. -/
def reward (S : EReal) : EReal := Ideal.div (w0 - S) wN

/-- The probability mass on the flipped value of a pixel. -/
def pFlip (p h : EReal) : EReal := Scalar.select (Ideal.cmp .oeq h w0) p (w1 - p)

/-- Minus the log-probability of the sampled value of a pixel. -/
def negLogProb (p h : EReal) : EReal := w0 - Ideal.log (Scalar.select (Ideal.cmp .oeq h w1) p ((w1 - p) + wE))

/-- A pixel's term of the loss, given its plane's reward `R`. -/
def term (p c h R : EReal) : EReal :=
  negLogProb p h * (R - (pFlip p h * (R + Ideal.div (sqDev c h - sqFlip c h) wN) + (w1 - pFlip p h) * R))

/-- A plane as a function of its row and lane. -/
abbrev Plane := Fin 512 → Fin 512 → EReal

/-- A plane's total squared deviation, summed lane by lane then row by row. -/
def planeSq (c h : Plane) : EReal := ∑ r : Fin 512, ∑ l : Fin 512, sqDev (c r l) (h r l)

/-- A plane's loss: the sum of its pixels' terms, lane by lane then row by row. -/
def planeLoss (p c h : Plane) : EReal :=
  ∑ r : Fin 512, ∑ l : Fin 512, term (p r l) (c r l) (h r l) (reward (planeSq c h))

/-- The argument arrays, f32[32, 1, 512, 512] at the extended reals, and plane `B` of one. -/
abbrev Arr := (⟨4, ![32, 1, 512, 512]⟩ : Shape).Idx → EReal
def plane (X : Arr) (B : Fin 32) : Plane := fun r l => X (ix4 B (0 : Fin 1) r l)

/-- Plane `B`'s loss, of the three arrays. -/
def lossOf (P C H : Arr) (B : Fin 32) : EReal := planeLoss (plane P B) (plane C B) (plane H B)

/-- THE RESULT: the sum of the 32 planes' losses, over 32. -/
def total (P C H : Arr) : EReal := Ideal.div (∑ B : Fin 32, lossOf P C H B) wB

/-! ## The three laws between the two programs' spellings -/

/-- `0 - x` is `-x` on every extended real. -/
theorem zero_sub' (x : EReal) : w0 - x = -x := by rw [w0_eq, zero_sub]

/-- The reference's reward `-((0 + S) / N)` is the kernel's `(0 - S) / N`: N is a nonzero real, so the quotient is a
    product with `1/N`, and a negation moves across a product on every extended real. -/
theorem reward_eq (S : EReal) : -(Ideal.div (w0 + S) wN) = reward S := by
  unfold reward
  rw [zero_sub', w0_eq, zero_add, wN_eq, Ideal.div_coe (by norm_num), Ideal.div_coe (by norm_num), neg_mul]

/-- A function of a chosen value is the choice of the function's values. -/
theorem apply_select {α β : Type} (f : α → β) (k : BitVec 1) (x y : α) :
    f (Scalar.select k x y) = Scalar.select k (f x) (f y) := by
  unfold Scalar.select; split <;> rfl

/-- The reference negates the chosen logarithm; the kernel subtracts from zero the logarithm of the chosen argument. -/
theorem negLog_select (p h : EReal) :
    -(Scalar.select (Ideal.cmp .oeq h w1) (Ideal.log p) (Ideal.log ((w1 - p) + wE))) = negLogProb p h := by
  unfold negLogProb
  rw [zero_sub', apply_select Ideal.log]

end Cert.Coma

end
-- ==== Proof.LibKeepdims3.lean ====
/-
  The keepdims layout moves of a rank-3 array [a, b, c], read at an index, at the extended reals: what a
  `sum(axis=-1, keepdims=True)` followed by a `sum(axis=1, keepdims=True)` and a `sum(axis=0, keepdims=True)` lowers to,
  one operation at a time, over arbitrary extents.

  * the sum along the lanes of an [a, b, c] array at (p, q) is `∑ k, v (p, q, k)` (`laneSum`);
  * an [a, b] array viewed as [a, b, 1] reads at (p, q, 0) the array at (p, q) (`addLaneUnit`);
  * the sum along the middle axis of an [a, b, 1] array at (p, 0) is `∑ q, v (p, q, 0)` (`rowSum`);
  * an [a, 1] array viewed as [a, 1, 1] reads at (p, 0, 0) the array at (p, 0) (`addLaneUnit` again);
  * the sum along the leading axis of an [a, 1, 1] array at (0, 0) is `∑ p, v (p, 0, 0)` (`leadSum`);
  * an [a, 1, 1] array spread over [a, b, c] reads at (p, q, k) the array at (p, 0, 0) (`spread`);
  * an [a, 1, b, c] array viewed as [a, b, c] reads at (p, q, k) the array at (p, 0, q, k) (`dropMidUnit`).
-/
import Idealize.ShloMosaic.Lib.Pipeline.Value
import Idealize.ShloMosaic.Lib.ValueIdx
import Idealize.ShloMosaic.PureOps.Ideal.Laws

namespace Idealize.ShloMosaic.LibKeepdims3

open Idealize.ShloMosaic Idealize.ShloMosaic.ValueIdx

variable {a b c : Nat} {φ : FTy}

/-- The sum along the lanes (the last axis) of an [a, b, c] array, at row (p, q): the sum of that row's entries. -/
theorem laneSum (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) := by
  refine (Ideal.multiReduction_add_single v acc h hφ hacc (ix2 p q)).trans ?_
  refine Finset.sum_congr rfl fun k _ => congrArg v ?_
  funext x
  match x with
  | ⟨0, _⟩ => rfl
  | ⟨1, _⟩ => rfl
  | ⟨2, _⟩ => rfl

/-- The sum along the middle axis of an [a, b, 1] array, at (p, 0): the sum over the middle coordinate. -/
theorem rowSum (v : FVec Ideal ⟨3, ![a, b, 1]⟩ φ) (acc : BitVec φ.bits)
    (h : (⟨3, ![a, b, 1]⟩ : Shape).Reduces [1] ⟨2, ![a, 1]⟩) (hφ : FKind.Formats φ) (hacc : acc = FKind.add.neutral φ hφ)
    (p : Fin a) :
    multiReduction .add [1] ⟨2, ![a, 1]⟩ v acc h hφ hacc (ix2 p (0 : Fin 1)) = ∑ q : Fin b, v (ix3 p q (0 : Fin 1)) := by
  refine (Ideal.multiReduction_add_single v acc h hφ hacc (ix2 p (0 : Fin 1))).trans ?_
  refine Finset.sum_congr rfl fun k _ => congrArg v ?_
  funext x
  match x with
  | ⟨0, _⟩ => rfl
  | ⟨1, _⟩ => rfl
  | ⟨2, _⟩ => rfl

/-- The sum along the leading axis of an [a, 1, 1] array, at (0, 0): the sum over the leading coordinate. -/
theorem leadSum (v : FVec Ideal ⟨3, ![a, 1, 1]⟩ φ) (acc : BitVec φ.bits)
    (h : (⟨3, ![a, 1, 1]⟩ : Shape).Reduces [0] ⟨2, ![1, 1]⟩) (hφ : FKind.Formats φ) (hacc : acc = FKind.add.neutral φ hφ) :
    multiReduction .add [0] ⟨2, ![1, 1]⟩ v acc h hφ hacc (ix2 (0 : Fin 1) (0 : Fin 1)) = ∑ p : Fin a, v (ix3 p (0 : Fin 1) (0 : Fin 1)) := by
  refine (Ideal.multiReduction_add_single v acc h hφ hacc (ix2 (0 : Fin 1) (0 : Fin 1))).trans ?_
  refine Finset.sum_congr rfl fun k _ => congrArg v ?_
  funext x
  match x with
  | ⟨0, _⟩ => rfl
  | ⟨1, _⟩ => rfl
  | ⟨2, _⟩ => rfl

variable {α : Type}

/-- An [m, n] array viewed as [m, n, 1] reads at (p, q, 0) the array at (p, q). -/
theorem addLaneUnit {m n : Nat} (v : (⟨2, ![m, n]⟩ : Shape).Idx → α) (h : (⟨2, ![m, n]⟩ : Shape).ShapeCasts ⟨3, ![m, n, 1]⟩)
    (p : Fin m) (q : Fin n) :
    shapeCast ⟨3, ![m, n, 1]⟩ v h (ix3 p q (0 : Fin 1)) = v (ix2 p q) := by
  refine shapeCast_apply v h _ _ ?_
  rw [Shape.rowMajor_val_two, Shape.rowMajor_val_three]
  show p.val * n + q.val = (p.val * n + q.val) * 1 + 0
  omega

/-- An [a, 1, 1] array spread over [a, b, c] reads at (p, q, k) the array at (p, 0, 0). -/
theorem spread (v : (⟨3, ![a, 1, 1]⟩ : Shape).Idx → α) (h : (⟨3, ![a, 1, 1]⟩ : Shape).Broadcasts ⟨3, ![a, b, c]⟩)
    (ha : a ≠ 1) (p : Fin a) (q : Fin b) (k : Fin c) :
    broadcastTo ⟨3, ![a, b, c]⟩ v h (ix3 p q k) = v (ix3 p (0 : Fin 1) (0 : Fin 1)) := by
  refine broadcastTo_apply v h _ _ fun x => ?_
  match x with
  | ⟨0, _⟩ => show p.val = if a = 1 then 0 else p.val; rw [if_neg ha]
  | ⟨1, _⟩ => show 0 = if (1 : Nat) = 1 then 0 else q.val; rw [if_pos rfl]
  | ⟨2, _⟩ => show 0 = if (1 : Nat) = 1 then 0 else k.val; rw [if_pos rfl]

/-- An [a, 1, b, c] array viewed as [a, b, c] reads at (p, q, k) the array at (p, 0, q, k). -/
theorem dropMidUnit (v : (⟨4, ![a, 1, b, c]⟩ : Shape).Idx → α) (h : (⟨4, ![a, 1, b, c]⟩ : Shape).ShapeCasts ⟨3, ![a, b, c]⟩)
    (p : Fin a) (q : Fin b) (k : Fin c) :
    shapeCast ⟨3, ![a, b, c]⟩ v h (ix3 p q k) = v (ix4 p (0 : Fin 1) q k) := by
  refine shapeCast_apply v h _ _ ?_
  rw [Shape.rowMajor_val_three, Shape.rowMajor_val_four]
  show ((p.val * 1 + 0) * b + q.val) * c + k.val = (p.val * b + q.val) * c + k.val
  simp

end Idealize.ShloMosaic.LibKeepdims3
-- ==== Proof.Payload.lean ====
/-
  The kernel body's arithmetic at the extended reals, read at an index.

  At one grid point the body holds a block of two planes of each argument (`x0` the probabilities, `x1` the target,
  `x2` the halftone; [2, 1, 512, 512] each). What it adds to its accumulator is the sum over the block's two planes of
  the plane's loss (Proof/Spec.lean `planeLoss`): each plane's reward is `(0 - Σ_rows Σ_lanes sq) / N` (`reward_pay`),
  each pixel's product is the spec's `term` at that reward (`term_pay`), and the three keepdims sums — along the lanes,
  along the rows, over the two planes — are plain sums (`pay1_apply`).
-/
import proofs.«115184_j72885595013509_2_alg».proof.Proof.Gen.KernelIdeal.Skeleton
import proofs.«115184_j72885595013509_2_alg».proof.Proof.Spec
import proofs.«115184_j72885595013509_2_alg».proof.Proof.LibKeepdims3

noncomputable section

namespace Cert.KernelIdeal.Payload

open Cert.KernelIdeal Cert.KernelIdeal.Gen Cert.Coma
open Idealize.ShloMosaic Idealize.ShloMosaic.ValueIdx Idealize.ShloMosaic.LibKeepdims3

/-- Plane `b` of a block of two planes. -/
def bplane (x : Vec Ideal S2x1x512x512 .f32) (b : Fin 2) : Plane := fun r l => x (ix4 b (0 : Fin 1) r l)

variable (x0 x1 x2 : Vec Ideal S2x1x512x512 .f32)

/-- The three loaded blocks viewed as [2, 512, 512]: the unit axis dropped. -/
theorem pay3_apply (b : Fin 2) (r l : Fin 512) : k0_pay3 (F := Ideal) x0 (ix3 b r l) = x0 (ix4 b (0 : Fin 1) r l) :=
  dropMidUnit x0 _ b r l
theorem pay4_apply (b : Fin 2) (r l : Fin 512) : k0_pay4 (F := Ideal) x1 (ix3 b r l) = x1 (ix4 b (0 : Fin 1) r l) :=
  dropMidUnit x1 _ b r l
theorem pay5_apply (b : Fin 2) (r l : Fin 512) : k0_pay5 (F := Ideal) x2 (ix3 b r l) = x2 (ix4 b (0 : Fin 1) r l) :=
  dropMidUnit x2 _ b r l

/-- A pixel's squared deviation. -/
theorem pay6_apply (b : Fin 2) (r l : Fin 512) :
    k0_pay6 (F := Ideal) x1 x2 (ix3 b r l) = sqDev (x1 (ix4 b (0 : Fin 1) r l)) (x2 (ix4 b (0 : Fin 1) r l)) := by
  show (k0_pay5 (F := Ideal) x2 (ix3 b r l) - k0_pay4 (F := Ideal) x1 (ix3 b r l))
      * (k0_pay5 (F := Ideal) x2 (ix3 b r l) - k0_pay4 (F := Ideal) x1 (ix3 b r l)) = _
  rw [pay5_apply, pay4_apply]
  rfl

/-- Plane `b`'s reward: zero minus the plane's squared deviations summed along the lanes and then along the rows, over N. -/
theorem reward_pay (b : Fin 2) :
    k0_pay7 (F := Ideal) x1 x2 (ix3 b (0 : Fin 1) (0 : Fin 1)) = reward (planeSq (bplane x1 b) (bplane x2 b)) := by
  unfold k0_pay7 reward planeSq
  refine congrArg (fun s => Ideal.div (w0 - s) wN) ?_
  refine (addLaneUnit _ _ b (0 : Fin 1)).trans ?_
  refine (rowSum _ _ _ _ _ b).trans ?_
  refine Finset.sum_congr rfl fun r _ => ?_
  refine (addLaneUnit _ _ b r).trans ?_
  refine (laneSum _ _ _ _ _ b r).trans ?_
  exact Finset.sum_congr rfl fun l _ => pay6_apply x1 x2 b r l

/-- The probability of a pixel's flipped value. -/
theorem pay8_apply (b : Fin 2) (r l : Fin 512) :
    k0_pay8 (F := Ideal) x0 x2 (ix3 b r l) = pFlip (x0 (ix4 b (0 : Fin 1) r l)) (x2 (ix4 b (0 : Fin 1) r l)) := by
  show Scalar.select (Ideal.cmp .oeq (k0_pay5 (F := Ideal) x2 (ix3 b r l)) w0) (k0_pay3 (F := Ideal) x0 (ix3 b r l))
      (w1 - k0_pay3 (F := Ideal) x0 (ix3 b r l)) = _
  rw [pay5_apply, pay3_apply]
  rfl

/-- The flip probability times the reward after the flip. -/
theorem pay9_apply (b : Fin 2) (r l : Fin 512) :
    k0_pay9 (F := Ideal) x0 x1 x2 (ix3 b r l)
      = pFlip (x0 (ix4 b (0 : Fin 1) r l)) (x2 (ix4 b (0 : Fin 1) r l))
        * (reward (planeSq (bplane x1 b) (bplane x2 b))
          + Ideal.div (sqDev (x1 (ix4 b (0 : Fin 1) r l)) (x2 (ix4 b (0 : Fin 1) r l))
              - sqFlip (x1 (ix4 b (0 : Fin 1) r l)) (x2 (ix4 b (0 : Fin 1) r l))) wN) := by
  show k0_pay8 (F := Ideal) x0 x2 (ix3 b r l)
      * (broadcastTo S2x512x512 (k0_pay7 (F := Ideal) x1 x2) broadcasts_S2x1x1_S2x512x512 (ix3 b r l)
        + Ideal.div (k0_pay6 (F := Ideal) x1 x2 (ix3 b r l)
            - ((w1 - k0_pay5 (F := Ideal) x2 (ix3 b r l)) - k0_pay4 (F := Ideal) x1 (ix3 b r l))
              * ((w1 - k0_pay5 (F := Ideal) x2 (ix3 b r l)) - k0_pay4 (F := Ideal) x1 (ix3 b r l))) wN) = _
  rw [spread (k0_pay7 (F := Ideal) x1 x2) broadcasts_S2x1x1_S2x512x512 (by decide) b r l, reward_pay, pay8_apply, pay6_apply,
    pay5_apply, pay4_apply]
  rfl

/-- A pixel's product is the spec's term at the pixel, with its plane's reward. -/
theorem term_pay (acc : Vec Ideal S1x1x1 .f32) (b : Fin 2) (r l : Fin 512) :
    (w0 - Ideal.log (Scalar.select (Ideal.cmp .oeq (k0_pay5 (F := Ideal) x2 (ix3 b r l)) w1) (k0_pay3 (F := Ideal) x0 (ix3 b r l))
          ((w1 - k0_pay3 (F := Ideal) x0 (ix3 b r l)) + wE)))
      * (broadcastTo S2x512x512 (k0_pay7 (F := Ideal) x1 x2) broadcasts_S2x1x1_S2x512x512 (ix3 b r l)
        - (k0_pay9 (F := Ideal) x0 x1 x2 (ix3 b r l)
          + (w1 - k0_pay8 (F := Ideal) x0 x2 (ix3 b r l))
            * broadcastTo S2x512x512 (k0_pay7 (F := Ideal) x1 x2) broadcasts_S2x1x1_S2x512x512 (ix3 b r l)))
      = term (bplane x0 b r l) (bplane x1 b r l) (bplane x2 b r l) (reward (planeSq (bplane x1 b) (bplane x2 b))) := by
  rw [spread (k0_pay7 (F := Ideal) x1 x2) broadcasts_S2x1x1_S2x512x512 (by decide) b r l, reward_pay, pay9_apply, pay8_apply,
    pay5_apply, pay3_apply]
  rfl

/-- WHAT ONE GRID POINT ADDS: the accumulator's one entry after the point is what it held plus the losses of the block's
    two planes. -/
theorem pay1_apply (acc : Vec Ideal S1x1x1 .f32) :
    k0_pay1 (F := Ideal) (k0_pay3 x0) (k0_pay5 x2) (k0_pay7 x1 x2) (k0_pay8 x0 x2) (k0_pay9 x0 x1 x2)
        (Scalar.ofBits .f32 0x3F800000#32) acc (ix3 (0 : Fin 1) (0 : Fin 1) (0 : Fin 1))
      = acc (ix3 (0 : Fin 1) (0 : Fin 1) (0 : Fin 1))
        + ∑ b : Fin 2, planeLoss (bplane x0 b) (bplane x1 b) (bplane x2 b) := by
  unfold k0_pay1
  rw [shapeCast_self]
  refine congrArg (acc (ix3 (0 : Fin 1) (0 : Fin 1) (0 : Fin 1)) + ·) ?_
  refine (addLaneUnit _ _ (0 : Fin 1) (0 : Fin 1)).trans ?_
  refine (leadSum _ _ _ _ _).trans ?_
  refine Finset.sum_congr rfl fun b _ => ?_
  unfold planeLoss
  refine (addLaneUnit _ _ b (0 : Fin 1)).trans ?_
  refine (rowSum _ _ _ _ _ b).trans ?_
  refine Finset.sum_congr rfl fun r _ => ?_
  refine (addLaneUnit _ _ b r).trans ?_
  refine (laneSum _ _ _ _ _ b r).trans ?_
  exact Finset.sum_congr rfl fun l _ => term_pay x0 x1 x2 acc b r l

end Cert.KernelIdeal.Payload

end
-- ==== Proof.Accum.lean ====
/-
  The accumulator across the grid, at the extended reals.

  The grid has 16 points: core `q` (of two) runs the eight consecutive points `8q … 8q + 7`; point `n` holds block `n` of
  each argument, that is planes `2n` and `2n + 1` (`iblk_apply`: the block's entry (b, 0, r, l) is the array's entry
  (2n + b, 0, r, l)), and contributes the losses of those two planes (`contrib`, `contrib_eq`). The accumulator is reset
  at the first point of a run, so after point `n` it holds the sum of the contributions of the points of `n`'s run up to
  `n` (`acc_eq`, by induction on the point), and at the last point of a run the output block holds the same (`out_eq`).
-/
import proofs.«115184_j72885595013509_2_alg».proof.Proof.Pieces
import proofs.«115184_j72885595013509_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Coma Cert.KernelIdeal.Payload

variable (m : (ℓ : Loc nD τ sig) → Buf (Elt Ideal) ℓ)

/-! ## A block is two planes of its array -/

theorem idx_facts0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)

theorem iblk0_apply (c : Dev nD) (t : Fin cfg0.N) (b : Fin 2) (r l : Fin 512) (hB : 2 * t.val + b.val < 32) :
    (iblk m c 0 t : Vec Ideal S2x1x512x512 .f32) (ix4 b (0 : Fin 1) r l)
      = m ((c : Thread nD τ).loc main_arg0) (ix4 (⟨2 * t.val + b.val, hB⟩ : Fin 32) (0 : Fin 1) r l) := by
  obtain ⟨h0, h1, h2, h3⟩ := idx_facts0 t
  unfold iblk
  rw [View.read_apply]
  show V m c main_arg0 _ = m (c.tc.loc main_arg0) _
  unfold V
  congr 1
  funext a
  apply Fin.ext
  match a with
  | ⟨0, _⟩ => show win0_0.index t 0 * 2 + 1 * b.val = 2 * t.val + b.val; rw [h0]; omega
  | ⟨1, _⟩ => show win0_0.index t 1 * 1 + 1 * 0 = 0; rw [h1]
  | ⟨2, _⟩ => show win0_0.index t 2 * 512 + 1 * r.val = r.val; rw [h2]; omega
  | ⟨3, _⟩ => show win0_0.index t 3 * 512 + 1 * l.val = l.val; rw [h3]; omega

theorem idx_facts1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

theorem iblk1_apply (c : Dev nD) (t : Fin cfg0.N) (b : Fin 2) (r l : Fin 512) (hB : 2 * t.val + b.val < 32) :
    (iblk m c 1 t : Vec Ideal S2x1x512x512 .f32) (ix4 b (0 : Fin 1) r l)
      = m ((c : Thread nD τ).loc main_arg1) (ix4 (⟨2 * t.val + b.val, hB⟩ : Fin 32) (0 : Fin 1) r l) := by
  obtain ⟨h0, h1, h2, h3⟩ := idx_facts1 t
  unfold iblk
  rw [View.read_apply]
  show V m c main_arg1 _ = m (c.tc.loc main_arg1) _
  unfold V
  congr 1
  funext a
  apply Fin.ext
  match a with
  | ⟨0, _⟩ => show win0_1.index t 0 * 2 + 1 * b.val = 2 * t.val + b.val; rw [h0]; omega
  | ⟨1, _⟩ => show win0_1.index t 1 * 1 + 1 * 0 = 0; rw [h1]
  | ⟨2, _⟩ => show win0_1.index t 2 * 512 + 1 * r.val = r.val; rw [h2]; omega
  | ⟨3, _⟩ => show win0_1.index t 3 * 512 + 1 * l.val = l.val; rw [h3]; omega

theorem idx_facts2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

theorem iblk2_apply (c : Dev nD) (t : Fin cfg0.N) (b : Fin 2) (r l : Fin 512) (hB : 2 * t.val + b.val < 32) :
    (iblk m c 2 t : Vec Ideal S2x1x512x512 .f32) (ix4 b (0 : Fin 1) r l)
      = m ((c : Thread nD τ).loc main_arg2) (ix4 (⟨2 * t.val + b.val, hB⟩ : Fin 32) (0 : Fin 1) r l) := by
  obtain ⟨h0, h1, h2, h3⟩ := idx_facts2 t
  unfold iblk
  rw [View.read_apply]
  show V m c main_arg2 _ = m (c.tc.loc main_arg2) _
  unfold V
  congr 1
  funext a
  apply Fin.ext
  match a with
  | ⟨0, _⟩ => show win0_2.index t 0 * 2 + 1 * b.val = 2 * t.val + b.val; rw [h0]; omega
  | ⟨1, _⟩ => show win0_2.index t 1 * 1 + 1 * 0 = 0; rw [h1]
  | ⟨2, _⟩ => show win0_2.index t 2 * 512 + 1 * r.val = r.val; rw [h2]; omega
  | ⟨3, _⟩ => show win0_2.index t 3 * 512 + 1 * l.val = l.val; rw [h3]; omega

/-- The three argument arrays as the kernel finds them. -/
abbrev argP (c : Dev nD) : Arr := m ((c : Thread nD τ).loc main_arg0)
abbrev argC (c : Dev nD) : Arr := m ((c : Thread nD τ).loc main_arg1)
abbrev argH (c : Dev nD) : Arr := m ((c : Thread nD τ).loc main_arg2)

/-- The loss of plane `k`, as a function of every natural (zero past the batch). -/
def lossN (c : Dev nD) (k : Nat) : EReal := if h : k < 32 then lossOf (argP m c) (argC m c) (argH m c) ⟨k, h⟩ else 0

/-- What grid point `n` adds to the accumulator (zero past the grid). -/
def contrib (c : Dev nD) (n : Nat) : EReal :=
  if h : n < cfg0.N then
    ∑ b : Fin 2, planeLoss (bplane (iblk m c 0 ⟨n, h⟩) b) (bplane (iblk m c 1 ⟨n, h⟩) b) (bplane (iblk m c 2 ⟨n, h⟩) b)
  else 0

/-- Point `n` contributes the losses of planes `2n` and `2n + 1`. -/
theorem contrib_eq (c : Dev nD) (n : Nat) (hn : n < 16) : contrib m c n = lossN m c (2 * n) + lossN m c (2 * n + 1) := by
  have hN : cfg0.N = 16 := N_0
  unfold contrib lossN
  rw [dif_pos (by rw [hN]; exact hn), dif_pos (by omega), dif_pos (by omega), Fin.sum_univ_two]
  have e : ∀ (b : Fin 2) (hB : 2 * n + b.val < 32),
      planeLoss (bplane (iblk m c 0 ⟨n, by rw [hN]; exact hn⟩) b) (bplane (iblk m c 1 ⟨n, by rw [hN]; exact hn⟩) b)
          (bplane (iblk m c 2 ⟨n, by rw [hN]; exact hn⟩) b)
        = lossOf (argP m c) (argC m c) (argH m c) ⟨2 * n + b.val, hB⟩ := by
    intro b hB
    unfold lossOf
    have e0 : bplane (iblk m c 0 ⟨n, by rw [hN]; exact hn⟩) b = plane (argP m c) ⟨2 * n + b.val, hB⟩ :=
      funext fun r => funext fun l => iblk0_apply m c ⟨n, by rw [hN]; exact hn⟩ b r l hB
    have e1 : bplane (iblk m c 1 ⟨n, by rw [hN]; exact hn⟩) b = plane (argC m c) ⟨2 * n + b.val, hB⟩ :=
      funext fun r => funext fun l => iblk1_apply m c ⟨n, by rw [hN]; exact hn⟩ b r l hB
    have e2 : bplane (iblk m c 2 ⟨n, by rw [hN]; exact hn⟩) b = plane (argH m c) ⟨2 * n + b.val, hB⟩ :=
      funext fun r => funext fun l => iblk2_apply m c ⟨n, by rw [hN]; exact hn⟩ b r l hB
    rw [e0, e1, e2]
  rw [e 0 (by show 2 * n + 0 < 32; omega), e 1 (by show 2 * n + 1 < 32; omega)]
  rfl

/-! ## The accumulator after each point -/

/-- The sum of the contributions of the points of `n`'s run up to `n`. -/
def runSum (c : Dev nD) (n : Nat) : EReal := ∑ k ∈ Finset.range (n % 8 + 1), contrib m c (n - n % 8 + k)

theorem runSum_first (c : Dev nD) (n : Nat) (h : n % 8 = 0) : runSum m c n = contrib m c n := by
  unfold runSum
  rw [h, Finset.sum_range_one]
  rfl

theorem runSum_succ (c : Dev nD) (n : Nat) (h : ¬(n + 1) % 8 = 0) : runSum m c (n + 1) = runSum m c n + contrib m c (n + 1) := by
  have e1 : (n + 1) % 8 = n % 8 + 1 := by omega
  have e2 : n + 1 - (n % 8 + 1) = n - n % 8 := by omega
  have e3 : n - n % 8 + (n % 8 + 1) = n + 1 := by have := Nat.mod_le n 8; omega
  unfold runSum
  rw [e1, e2, Finset.sum_range_succ, e3]

/-- The accumulator's one index. -/
abbrev o : S1x1x1.Idx := ix3 (0 : Fin 1) (0 : Fin 1) (0 : Fin 1)

/-- The zero block's entry is the zero pattern. -/
theorem pay2_apply : k0_pay2 (F := Ideal) o = w0 := by
  unfold k0_pay2
  rw [shapeCast_self]
  rfl

/-- At the first point of a run the accumulator ends at that point's contribution. -/
theorem acc_first (c : Dev nD) (t : Fin cfg0.N) (h0 : t.val % 8 = 0) : (outsAt0 m c t.val t.isLt).2 o = runSum m c t.val := by
  have h1 : ¬t.val % 8 = 7 := by omega
  rw [outsAt0_A m c t h0 h1]
  dsimp only
  rw [Pieces.sout_A]
  refine (pay1_apply (iblk m c 0 t) (iblk m c 1 t) (iblk m c 2 t) (k0_pay2 (F := Ideal))).trans ?_
  rw [pay2_apply, w0_eq, zero_add, runSum_first m c t.val h0]
  unfold contrib
  rw [dif_pos t.isLt]

/-- After every point the accumulator holds the sum of its run's contributions so far. -/
theorem acc_eq (c : Dev nD) : ∀ (n : Nat) (hn : n < cfg0.N), (outsAt0 m c n hn).2 o = runSum m c n
  | 0, hn => acc_first m c ⟨0, hn⟩ rfl
  | n + 1, hn => by
    by_cases h0 : (n + 1) % 8 = 0
    · exact acc_first m c ⟨n + 1, hn⟩ h0
    · have ih := acc_eq c n (Nat.lt_of_succ_lt hn)
      have hc : contrib m c (n + 1)
          = ∑ b : Fin 2, planeLoss (bplane (iblk m c 0 ⟨n + 1, hn⟩) b) (bplane (iblk m c 1 ⟨n + 1, hn⟩) b)
              (bplane (iblk m c 2 ⟨n + 1, hn⟩) b) := by
        unfold contrib; rw [dif_pos hn]
      rw [runSum_succ m c n h0, hc, ← ih]
      by_cases h1 : (n + 1) % 8 = 7
      · rw [outsAt0_C m c ⟨n + 1, hn⟩ h0 h1]
        dsimp only
        rw [Pieces.sout_C]
        exact pay1_apply (iblk m c 0 ⟨n + 1, hn⟩) (iblk m c 1 ⟨n + 1, hn⟩) (iblk m c 2 ⟨n + 1, hn⟩) _
      · rw [outsAt0_B m c ⟨n + 1, hn⟩ h0 h1]
        dsimp only
        rw [Pieces.sout_B]
        exact pay1_apply (iblk m c 0 ⟨n + 1, hn⟩) (iblk m c 1 ⟨n + 1, hn⟩) (iblk m c 2 ⟨n + 1, hn⟩) _

/-- At the last point of a run the output block holds what the accumulator holds: the whole run's sum. -/
theorem out_eq (c : Dev nD) (t : Fin cfg0.N) (h1 : t.val % 8 = 7) : (outsAt0 m c t.val t.isLt).1 o = runSum m c t.val := by
  have h0 : ¬t.val % 8 = 0 := by omega
  rw [← acc_eq m c t.val t.isLt, outsAt0_C m c t h0 h1]
  dsimp only
  rw [Pieces.out_C, Pieces.sout_C]

end Cert.KernelIdeal.Accum

end
-- ==== Proof.LibIdxSums.lean ====
/-
  Finite sums over the multi-indices of an array, as nested sums over the coordinates, in any additive commutative
  monoid (the extended reals among them: their addition is commutative and associative at the infinities too, so a
  sum may be regrouped freely there).

  * a rank-4 array with a unit second axis, [a, 1, c, d]: the sum over every index is the triple sum over the three
    long coordinates (`sum_idx4_unit1`); and the sum over the indices whose leading coordinate is a given `A` is the
    double sum over the last two (`sum_filter_lead4_unit1`) — what a sum "over every axis but the first" reads as;
  * a rank-3 array with two trailing unit axes, [a, 1, 1]: the sum over every index is the sum over the leading
    coordinate (`sum_idx3_unit12`);
  * a sum over `Fin (m * n)` cut into `m` consecutive runs of `n` (`sum_fin_mul`);
  * a sum over `2K` consecutive naturals taken two at a time (`sum_range_pairs`);
  * a running total that starts from `z + x 0` and adds `x (k+1)` at each later step is `z` plus the partial sum
    (`chain_eq_sum`).
-/
import Idealize.ShloMosaic.Lib.ValueIdx

namespace Idealize.ShloMosaic.LibIdxSums

open Idealize.ShloMosaic Idealize.ShloMosaic.ValueIdx

variable {M : Type*} [AddCommMonoid M]

/-- The indices of an [a, 1, c, d] array are the triples of its long coordinates. -/
def idxEquiv4Unit1 {a c d : Nat} : (⟨4, ![a, 1, c, d]⟩ : Shape).Idx ≃ Fin a × Fin c × Fin d where
  toFun j := (j 0, j 2, j 3)
  invFun p := ix4 p.1 (0 : Fin 1) p.2.1 p.2.2
  left_inv j := by
    funext x
    match x with
    | ⟨0, _⟩ => rfl
    | ⟨1, _⟩ => exact Fin.ext (by have := (j 1).isLt; show 0 = (j 1).val; simp at this; omega)
    | ⟨2, _⟩ => rfl
    | ⟨3, _⟩ => rfl
  right_inv p := rfl

/-- The sum over every index of an [a, 1, c, d] array is the triple sum over its three long coordinates. -/
theorem sum_idx4_unit1 {a c d : Nat} (f : (⟨4, ![a, 1, c, d]⟩ : Shape).Idx → M) :
    ∑ j, f j = ∑ A : Fin a, ∑ C : Fin c, ∑ D : Fin d, f (ix4 A (0 : Fin 1) C D) := by
  rw [← Equiv.sum_comp (idxEquiv4Unit1 (a := a) (c := c) (d := d)).symm f, Fintype.sum_prod_type]
  refine Finset.sum_congr rfl fun A _ => ?_
  rw [Fintype.sum_prod_type]
  rfl

/-- The sum over the indices of an [a, 1, c, d] array whose leading coordinate is `A`: the double sum over the last two
    coordinates. (`lead` is any function that reads the leading coordinate — a reduction's "drop the other axes".) -/
theorem sum_filter_lead4_unit1 {a c d : Nat} {ι : Type*} [DecidableEq ι] (lead : (⟨4, ![a, 1, c, d]⟩ : Shape).Idx → ι) (key : ι)
    (A : Fin a) (hlead : ∀ j, lead j = key ↔ j 0 = A) (f : (⟨4, ![a, 1, c, d]⟩ : Shape).Idx → M) :
    ∑ j ∈ Finset.univ.filter (fun j => lead j = key), f j = ∑ C : Fin c, ∑ D : Fin d, f (ix4 A (0 : Fin 1) C D) := by
  rw [Finset.sum_filter, sum_idx4_unit1]
  rw [Finset.sum_eq_single A]
  · refine Finset.sum_congr rfl fun C _ => Finset.sum_congr rfl fun D _ => ?_
    rw [if_pos ((hlead _).mpr rfl)]
  · intro A' _ hne
    refine Finset.sum_eq_zero fun C _ => Finset.sum_eq_zero fun D _ => ?_
    rw [if_neg (fun h => hne ((hlead _).mp h))]
  · intro h; exact absurd (Finset.mem_univ A) h

/-- The indices of an [a, 1, 1] array are its leading coordinates. -/
def idxEquiv3Unit12 {a : Nat} : (⟨3, ![a, 1, 1]⟩ : Shape).Idx ≃ Fin a where
  toFun j := j 0
  invFun p := ix3 p (0 : Fin 1) (0 : Fin 1)
  left_inv j := by
    funext x
    match x with
    | ⟨0, _⟩ => rfl
    | ⟨1, _⟩ => exact Fin.ext (by have := (j 1).isLt; show 0 = (j 1).val; simp at this; omega)
    | ⟨2, _⟩ => exact Fin.ext (by have := (j 2).isLt; show 0 = (j 2).val; simp at this; omega)
  right_inv p := rfl

/-- The sum over every index of an [a, 1, 1] array is the sum over its leading coordinate. -/
theorem sum_idx3_unit12 {a : Nat} (f : (⟨3, ![a, 1, 1]⟩ : Shape).Idx → M) :
    ∑ j, f j = ∑ A : Fin a, f (ix3 A (0 : Fin 1) (0 : Fin 1)) :=
  (Equiv.sum_comp (idxEquiv3Unit12 (a := a)).symm f).symm

/-- A sum over `Fin (m * n)` is the sum over `m` consecutive runs of `n`: position `n * i + j` is entry `j` of run `i`. -/
theorem sum_fin_mul (m n : Nat) (f : Fin (m * n) → M) :
    ∑ k, f k = ∑ i : Fin m, ∑ j : Fin n, f (finProdFinEquiv (i, j)) := by
  rw [← Equiv.sum_comp finProdFinEquiv f, Fintype.sum_prod_type]

/-- A sum over the first `2K` naturals, taken in consecutive pairs. -/
theorem sum_range_pairs (f : Nat → M) : ∀ K, ∑ k ∈ Finset.range K, (f (2 * k) + f (2 * k + 1)) = ∑ n ∈ Finset.range (2 * K), f n
  | 0 => by simp
  | K + 1 => by
    rw [Finset.sum_range_succ, sum_range_pairs f K, show 2 * (K + 1) = 2 * K + 1 + 1 by ring, Finset.sum_range_succ,
      Finset.sum_range_succ, add_assoc]

/-- A running total: from `z + x 0`, adding `x (k + 1)` at step `k + 1`, the total after step `n` is `z` plus the sum of
    `x 0 … x n`. -/
theorem chain_eq_sum (acc x : Nat → M) (z : M) (h0 : acc 0 = z + x 0) (hs : ∀ k, acc (k + 1) = acc k + x (k + 1)) :
    ∀ n, acc n = z + ∑ k ∈ Finset.range (n + 1), x k
  | 0 => by rw [h0, Finset.sum_range_one]
  | n + 1 => by rw [hs, chain_eq_sum acc x z h0 hs n, Finset.sum_range_succ _ (n + 1), add_assoc]

end Idealize.ShloMosaic.LibIdxSums
-- ==== Proof.KernelValue.lean ====
/-
  The kernel's result, at the extended reals: the loss of Proof/Spec.lean (`Cert.Coma.total`) of its three argument
  arrays.

  The output array [2, 1, 1] has one entry per core. Core `q`'s block is written back once, at the last point
  `8q + 7` of its run, with what the accumulator then holds — the sum of the run's eight contributions (`flushed_eq`) —,
  and the two blocks cover the array (`final`). The host lines after the region sum the two entries from zero and divide
  by 32 (`tail_eq`). Each point contributes two consecutive planes, so the eight points of core `q` contribute planes
  `16q … 16q + 15` and the two cores all 32 (`partials_sum`): the same planes' losses as the spec's sum over the batch,
  grouped by core and by point — a regrouping of a finite sum, which holds on the extended reals (`result_eq`).
-/
import proofs.«115184_j72885595013509_2_alg».proof.Proof.Accum
import proofs.«115184_j72885595013509_2_alg».proof.Proof.LibIdxSums
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Coma Cert.KernelIdeal.Accum Idealize.ShloMosaic.LibIdxSums

variable (m : (ℓ : Loc nD τ sig) → Buf (Elt Ideal) ℓ) (ρ : Dev nD → PrngReg)

/-- The output array after the run: entry `q` is the sum of the contributions of core `q`'s eight points. -/
def partials (c : Dev nD) : S2x1x1.Idx → EReal := fun i => runSum m c (8 * (i 0).val + 7)

/-- The output window's block index at a point is the point's core. -/
theorem idx_facts3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- What the one write-back of a core's run writes: that core's entry of `partials`. -/
theorem flushed_eq (c : Dev nD) (t : Fin cfg0.N) (hf : (cfg0.win 3).flush t = true) :
    (dats m 0 c).flushed 3 t = ((cfg0.win 3).blk t).view.read (Elt Ideal) (partials m c) := by
  have h7 : t.val % 8 = 7 := (flush0_3 t).mp hf
  obtain ⟨e0, e1, e2⟩ := idx_facts3 t
  show (cfg0.win 3).cut (grid0.coords t) ((dats m 0 c).after 3 t) = _
  rw [after0_3]
  funext j
  have hj : j = o := funext fun a => Fin.ext (by
    match a with
    | ⟨0, _⟩ => have : (j 0).val < 1 := (j 0).isLt; show (j 0).val = 0; omega
    | ⟨1, _⟩ => have : (j 1).val < 1 := (j 1).isLt; show (j 1).val = 0; omega
    | ⟨2, _⟩ => have : (j 2).val < 1 := (j 2).isLt; show (j 2).val = 0; omega)
  subst hj
  show (outsAt0 m c t.val t.isLt).1 o = runSum m c (8 * (((cfg0.win 3).blk t).view.emb o 0).val + 7)
  have he : (((cfg0.win 3).blk t).view.emb o 0).val = t.val / 8 := by
    show win0_3.index t 0 * 1 + 1 * 0 = _
    rw [e0]; omega
  rw [he, out_eq m c t h7]
  exact congrArg (runSum m c) (by omega)

/-- An index of the output array is in point `t`'s block iff each coordinate is in the block's range on its axis. -/
theorem mem_blk (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0).slice (win0_3.rect t)).set ↔ _
  rw [View.set_slice_whole, Rect.mem_set_unit]
  exact Iff.rfl

/-- The output array ends at `partials`: entry `q` is covered by the block written back at point `8q + 7`. -/
theorem final (c : Dev nD) : (dats m 0 c).arrAt 3 cfg0.N = partials m c :=
  (dats m 0 c).arrAt_eq_of_cover 3 (partials m c) (flushed_eq m c) fun i => by
    have hN : cfg0.N = 16 := N_0
    have hi0 : (i 0).val < 2 := (i 0).isLt
    have hi1 : (i 1).val < 1 := (i 1).isLt
    have hi2 : (i 2).val < 1 := (i 2).isLt
    have ht : 8 * (i 0).val + 7 < cfg0.N := by rw [hN]; omega
    obtain ⟨e0, e1, e2⟩ := idx_facts3 ⟨8 * (i 0).val + 7, ht⟩
    refine ⟨⟨8 * (i 0).val + 7, ht⟩, (flush0_3 _).mpr (by show (8 * (i 0).val + 7) % 8 = 7; omega), ?_⟩
    rw [mem_blk]
    intro a
    match a with
    | ⟨0, _⟩ =>
      show win0_3.index ⟨8 * (i 0).val + 7, ht⟩ 0 * 1 ≤ (i 0).val ∧ (i 0).val < win0_3.index ⟨8 * (i 0).val + 7, ht⟩ 0 * 1 + 1
      rw [e0]; show (8 * (i 0).val + 7) / 8 * 1 ≤ (i 0).val ∧ (i 0).val < (8 * (i 0).val + 7) / 8 * 1 + 1; omega
    | ⟨1, _⟩ =>
      show win0_3.index ⟨8 * (i 0).val + 7, ht⟩ 1 * 1 ≤ (i 1).val ∧ (i 1).val < win0_3.index ⟨8 * (i 0).val + 7, ht⟩ 1 * 1 + 1
      rw [e1]; omega
    | ⟨2, _⟩ =>
      show win0_3.index ⟨8 * (i 0).val + 7, ht⟩ 2 * 1 ≤ (i 2).val ∧ (i 2).val < win0_3.index ⟨8 * (i 0).val + 7, ht⟩ 2 * 1 + 1
      rw [e2]; omega

/-- The host lines after the region: the two entries summed from zero, over 32. -/
theorem tail_eq (c : Dev nD) : Pipeline.afterTail₀ cfgs (dats m) 0 (V0 m) [hostOps1] c main_v2
    = Host.divf (F := Ideal) (Host.reduceAdd (F := Ideal) (partials m c) (constant (F := Ideal) S_ .f32 0x00000000#32) reducesTo_S2x1x1_S_d0_1_2 h_S_) (constant (F := Ideal) S_ .f32 0x42000000#32) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = partials m c :=
    (Pipeline.withArrays_arr spec0 launch0.win.arr_inj c _ _ 3).trans (final m c)
  rw [e]

/-- The two cores' runs together contribute every plane of the batch once. -/
theorem partials_sum (c : Dev nD) :
    ∑ j : S2x1x1.Idx, partials m c j = ∑ B : Fin 32, lossOf (argP m c) (argC m c) (argH m c) B := by
  have hB : ∑ B : Fin 32, lossOf (argP m c) (argC m c) (argH m c) B = ∑ n ∈ Finset.range (16 + 16), lossN m c n := by
    rw [Finset.sum_fin_eq_sum_range]
    rfl
  have h0 : runSum m c 7 = ∑ n ∈ Finset.range 16, lossN m c n := by
    unfold runSum
    rw [show 7 % 8 + 1 = 8 from rfl, show 7 - 7 % 8 = 0 from rfl]
    rw [Finset.sum_congr rfl fun k hk => (congrArg (contrib m c) (Nat.zero_add k)).trans
      (contrib_eq m c k (by have := Finset.mem_range.mp hk; omega))]
    exact sum_range_pairs (lossN m c) 8
  have h1 : runSum m c 15 = ∑ n ∈ Finset.range 16, lossN m c (16 + n) := by
    unfold runSum
    rw [show 15 % 8 + 1 = 8 from rfl, show 15 - 15 % 8 = 8 from rfl]
    rw [Finset.sum_congr rfl fun k hk => (contrib_eq m c (8 + k) (by have := Finset.mem_range.mp hk; omega)).trans
      (show lossN m c (2 * (8 + k)) + lossN m c (2 * (8 + k) + 1) = lossN m c (16 + 2 * k) + lossN m c (16 + (2 * k + 1)) from by
        rw [show 2 * (8 + k) = 16 + 2 * k by ring, show 16 + 2 * k + 1 = 16 + (2 * k + 1) by ring])]
    exact sum_range_pairs (fun n => lossN m c (16 + n)) 8
  rw [sum_idx3_unit12, Fin.sum_univ_two, hB, Finset.sum_range_add, ← h0, ← h1]
  rfl

/-- THE KERNEL'S RESULT is the spec's loss of its arguments. -/
theorem result_eq (c : Dev nD) :
    Host.divf (F := Ideal) (Host.reduceAdd (F := Ideal) (partials m c) (constant (F := Ideal) S_ .f32 0x00000000#32) reducesTo_S2x1x1_S_d0_1_2 h_S_)
        (constant (F := Ideal) S_ .f32 0x42000000#32)
      = fun _ => total (argP m c) (argC m c) (argH m c) := by
  funext i
  show Ideal.div (Host.reduceAdd (F := Ideal) (partials m c) (constant (F := Ideal) S_ .f32 0x00000000#32) reducesTo_S2x1x1_S_d0_1_2 h_S_ i) wB = _
  unfold total
  refine congrArg (fun s => Ideal.div s wB) ?_
  simp only [Host.reduceAdd, Ideal.hostReduceAdd_def]
  refine (Ideal.hostReduceAdd_total reducesTo_S2x1x1_S_d0_1_2 (fun b => b.elim0) (partials m c) _ i).trans ?_
  refine ((congrArg (· + _) w0_eq).trans (zero_add _)).trans ?_
  exact partials_sum m c

/-- The kernel's run, read: the result at the spec's loss of the arguments, the arguments unchanged. -/
theorem run : θ_run defs (onTc (τ := τ) (main (F := Ideal))) ⟨m, fun _ => 0, ρ⟩ fun r => ∀ c : Dev nD,
      r.2.mem ((c.tc : Thread nD τ).loc main_v2) = (fun _ => total (argP m c) (argC m c) (argH m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v2 (by decide)).trans ((tail_eq m c).trans (result_eq m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KValue

end
-- ==== Proof.RefValue.lean ====
/-
  The reference, read at the extended reals: its result is the loss of Proof/Spec.lean (`Cert.Coma.total`) of its
  three argument arrays.

  Its per-plane mean is a sum over every axis but the first — the sum over the indices whose leading coordinate is the
  plane's number, which is the double sum over rows and lanes (`planeSum_apply`) — then a quotient by N and a negation:
  the plane's reward (`reward_apply`, by `Cert.Coma.reward_eq`). The per-pixel operations are the spec's `term` up to the
  spelling of the log-probability (`term_apply`, by `Cert.Coma.negLog_select`), and the final sum over all four axes is
  the sum over planes of the planes' losses (`result_eq`).
-/
import proofs.«115184_j72885595013509_2_alg».proof.Proof.Gen.ReferenceIdeal.Read
import proofs.«115184_j72885595013509_2_alg».proof.Proof.Spec
import proofs.«115184_j72885595013509_2_alg».proof.Proof.LibIdxSums

noncomputable section

namespace Cert.ReferenceIdeal.RefValue

open Cert.ReferenceIdeal Cert.ReferenceIdeal.Gen Cert.ReferenceIdeal.Read Cert.Coma
open Idealize.ShloMosaic Idealize.ShloMosaic.ValueIdx Idealize.ShloMosaic.LibIdxSums

variable (x0 x1 x2 : Arr)

/-- The sum over axes 1, 2, 3 at plane `i`: the zero it starts from plus the plane's total squared deviation. -/
theorem planeSum_apply (i : S32.Idx) :
    val_main_v2 (F := Ideal) x1 x2 i = w0 + planeSq (plane x1 (i 0)) (plane x2 (i 0)) := by
  unfold val_main_v2
  simp only [Host.reduceAdd, Ideal.hostReduceAdd_def]
  unfold Ideal.hostReduceAdd
  refine congrArg (w0 + ·) ?_
  refine (sum_filter_lead4_unit1 (M := EReal) (reducesTo_S32x1x512x512_S32_d1_2_3.drop) i (i 0) (fun j => ?_)
    (val_main_v1 (F := Ideal) x1 x2)).trans ?_
  · constructor
    · intro h; exact congrFun h 0
    · intro h; funext b
      match b with
      | ⟨0, _⟩ => exact h
  · rfl

/-- Plane `i`'s reward, as the reference computes it. -/
theorem reward_apply (i : S32.Idx) :
    val_main_v5 (F := Ideal) x1 x2 i = reward (planeSq (plane x1 (i 0)) (plane x2 (i 0))) := by
  rw [val_main_v5_apply, val_main_v4_apply, planeSum_apply, val_main_v3_apply, val_main_cst_0_apply]
  exact reward_eq _

/-- A pixel's product, as the reference computes it, is the spec's term at the pixel with its plane's reward. -/
theorem term_apply (B : Fin 32) (r l : Fin 512) :
    val_main_v39 (F := Ideal) x0 x1 x2 (ix4 B (0 : Fin 1) r l)
      = term (x0 (ix4 B (0 : Fin 1) r l)) (x1 (ix4 B (0 : Fin 1) r l)) (x2 (ix4 B (0 : Fin 1) r l))
          (reward (planeSq (plane x1 B) (plane x2 B))) := by
  simp only [val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_v6_apply, val_main_v1_apply,
    val_main_v0_apply, val_main_cst_1_apply, val_main_cst_2_apply, val_main_cst_3_apply, val_main_cst_4_apply,
    val_main_cst_5_apply, val_main_cst_6_apply, val_main_cst_7_apply, val_main_cst_8_apply, reward_apply]
  unfold term
  rw [← negLog_select]
  rfl

/-- THE REFERENCE'S RESULT is the spec's loss of its arguments. -/
theorem result_eq : val_main_v41 (F := Ideal) x0 x1 x2 = fun _ => total x0 x1 x2 := by
  funext i
  rw [val_main_v41_apply, val_main_v40_apply, val_main_cst_9_apply, val_main_cst_10_apply]
  unfold total
  refine congrArg (fun s => Ideal.div s wB) ?_
  refine ((congrArg (· + _) w0_eq).trans (zero_add _)).trans ?_
  refine (sum_idx4_unit1 (M := EReal) (val_main_v39 (F := Ideal) x0 x1 x2)).trans ?_
  refine Finset.sum_congr rfl fun B _ => ?_
  unfold lossOf planeLoss
  exact Finset.sum_congr rfl fun r _ => Finset.sum_congr rfl fun l _ => term_apply x0 x1 x2 B r l

end Cert.ReferenceIdeal.RefValue

end
-- ==== Proof.lean ====
/-
  The kernel — a per-pixel counterfactual REINFORCE loss of a sampled halftone, summed plane by plane in an
  accumulator carried across a 2 × 8 grid (two planes per point, one partial sum per core) and finished on the host by
  adding the two partial sums and dividing by the batch size — against the plain jnp reference, which takes the mean
  squared deviation per plane, forms every pixel's term over the whole [32, 1, 512, 512] batch and sums all of it at once.

  At the extended reals both programs compute ONE function of the three argument arrays, `Cert.Coma.total`
  (Proof/Spec.lean): the sum over the 32 planes of the plane's loss, over 32. The differences between them are a
  negation spelt `0 - x` or `-x`, the side of the quotient by N = 512 · 512 on which the reward's negation stands
  (N is a nonzero real, so the quotient is a product and the sign moves across it at the infinities too), the logarithm
  taken after or before the choice of its argument, and the grouping of the sums (lanes, rows, two planes, eight points,
  two cores on one side; all four axes at once on the other) — and a finite sum of extended reals may be regrouped
  freely. None of these needs the inputs to be finite, so the precondition is not opened.

    Proof/Spec.lean         the function, and the three scalar laws
    Proof/LibIdxSums.lean   sums over multi-indices as nested sums over coordinates; pairs and runs of naturals
    Proof/LibKeepdims3.lean the keepdims layout moves of a rank-3 array read at an index
    Proof/RefValue.lean     the reference's result is the function (over the generated read-at-an-index lemmas)
    Proof/Payload.lean      what one grid point adds to the accumulator
    Proof/Pieces.lean       what each control case of the body leaves in the accumulator and the output block
    Proof/Accum.lean        the accumulator after each point, by induction on the point
    Proof/KernelValue.lean  the output array, the host lines after the region, and the regrouping: the kernel's result
                            is the function

  The three frames are the generated ones (the reference's is its generated run with the result dropped); the ideal
  pass rewrote nothing, so `preserves` is `True`.
-/
import proofs.«115184_j72885595013509_2_alg».proof.Defs
import proofs.«115184_j72885595013509_2_alg».proof.Proof.Gen.Kernel
import proofs.«115184_j72885595013509_2_alg».proof.Proof.Gen.Kernel.Frame
import proofs.«115184_j72885595013509_2_alg».proof.Proof.Gen.KernelIdeal
import proofs.«115184_j72885595013509_2_alg».proof.Proof.Gen.KernelIdeal.Frame
import proofs.«115184_j72885595013509_2_alg».proof.Proof.Gen.ReferenceIdeal
import proofs.«115184_j72885595013509_2_alg».proof.Proof.Gen.Pre_finite_inputs
import proofs.«115184_j72885595013509_2_alg».proof.Proof.Gen.ReferenceIdeal.Run
import proofs.«115184_j72885595013509_2_alg».proof.Proof.Gen.ReferenceIdeal.Read
import proofs.«115184_j72885595013509_2_alg».proof.Proof.KernelValue
import proofs.«115184_j72885595013509_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at the loss of the arguments, which agree. -/
theorem algebraic : Cert.algebraic_KernelIdeal_ReferenceIdeal := by
  intro m ρ m' ρ' _ hagree
  refine ⟨fun c => fun _ => Cert.Coma.total (Cert.KernelIdeal.Accum.argP m c) (Cert.KernelIdeal.Accum.argC m c)
    (Cert.KernelIdeal.Accum.argH m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
